-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x131072 : Shape := ⟨2, ![256, 131072]⟩
abbrev S256x2048 : Shape := ⟨2, ![256, 2048]⟩
abbrev S64x256 : Shape := ⟨2, ![64, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S256x131072 : S_.BroadcastsInDim S256x131072 (![] : Fin 0 → Fin S256x131072.rank)
  reducesTo_S256x131072_S_d0_1 : S256x131072.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg7 : FVec F S256 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_cst_20 : FVec F S_ .f32 := constant S_ .f32 0x00000000#32
  let main_v54 : FVec F S256 .f32 := broadcastInDim S256 ![] bcast_S_S256 main_cst_20
  let main_v55 : IVec S256 1 := cmpf .oge main_arg7 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v53 main_v56
  main_v57

def fn_part2 {F : FTy → Type} [FloatOps F] (main_arg7 : FVec F S256 .f32) (main_arg8 : FVec F S256x256 .f32) (main_arg9 : FVec F S256 .f32) (main_arg10 : FVec F S256x1 .f32) (main_arg11 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg7 main_v48 main_v49 main_v50

def fn_part1 {F : FTy → Type} [FloatOps F] (main_arg5 : FVec F S256 .f32) (main_arg6 : FVec F S256 .f32) (main_arg7 : FVec F S256 .f32) (main_arg8 : FVec F S256x256 .f32) (main_arg9 : FVec F S256 .f32) (main_arg10 : FVec F S256x1 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x131072 .f32) (main_arg1 : IVec S256x2048 32) (main_arg2 : FVec F S64x256 .f32) (main_arg3 : FVec F S256 .f32) (main_arg4 : FVec F S256 .f32) (main_arg5 : FVec F S256 .f32) (main_arg6 : FVec F S256 .f32) (main_arg7 : FVec F S256 .f32) (main_arg8 : FVec F S256x256 .f32) (main_arg9 : FVec F S256 .f32) (main_arg10 : FVec F S256x1 .f32) (main_arg11 : FVec F S1 .f32) : IVec S_ 1 :=
  let main_v0 : FVec F S256x131072 .f32 := Host.absf main_arg0
  let main_cst : FVec F S_ .f32 := constant S_ .f32 0x7F800000#32
  let main_v1 : FVec F S256x131072 .f32 := broadcastInDim S256x131072 ![] bcast_S_S256x131072 main_cst
  let main_v2 : IVec S256x131072 1 := cmpf .olt main_v0 main_v1
  let main_c : IVec S_ 1 := constantI S_ 1 1#1
  let main_v3 : IVec S_ 1 := (fun x v => Host.reduce IntOp.andi x v reducesTo_S256x131072_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S256x131072 : Shape := ⟨2, ![256, 131072]⟩
abbrev S256x2048 : Shape := ⟨2, ![256, 2048]⟩
abbrev S64x256 : Shape := ⟨2, ![64, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x2048x64 : Shape := ⟨3, ![256, 2048, 64]⟩
abbrev S_ : Shape := ⟨0, ![]⟩
abbrev S1x256 : Shape := ⟨2, ![1, 256]⟩
abbrev S1x1 : Shape := ⟨2, ![1, 1]⟩
abbrev S32x256x64 : Shape := ⟨3, ![32, 256, 64]⟩
abbrev S32x256 : Shape := ⟨2, ![32, 256]⟩
abbrev S8192x64 : Shape := ⟨2, ![8192, 64]⟩
abbrev S8192x256 : Shape := ⟨2, ![8192, 256]⟩
abbrev S32x256x256 : Shape := ⟨3, ![32, 256, 256]⟩
abbrev S1x1x256 : Shape := ⟨3, ![1, 1, 256]⟩

abbrev nBuf : Space → Nat
  | .hbm => 29
  | .vmem => 12
  | .smem => 0
  | _ => 0

abbrev bufTy : (tb : Table) → Fin (tcTables nBuf tb) → BufTy
  | .hbm, ⟨0, _⟩ => ⟨S256x131072, .f32⟩
  | .hbm, ⟨1, _⟩ => ⟨S256x2048, .i32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S256x2048x64, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x1, .f32⟩
  | .hbm, ⟨28, _⟩ => ⟨S256x2048, .f32⟩
  | .local _ .vmem, ⟨0, _⟩ => ⟨S32x256x64, .f32⟩
  | .local _ .vmem, ⟨1, _⟩ => ⟨S32x256x64, .f32⟩
  | .local _ .vmem, ⟨2, _⟩ => ⟨S32x256, .i32⟩
  | .local _ .vmem, ⟨3, _⟩ => ⟨S32x256, .i32⟩
  | .local _ .vmem, ⟨4, _⟩ => ⟨S64x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S32x256, .f32⟩
  | .local _ .vmem, ⟨11, _⟩ => ⟨S32x256, .f32⟩
  | _, _ => ⟨S256x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S256x131072_S256x2048x64 : S256x131072.ShapeCasts S256x2048x64
  bcast_S_S256 : S_.BroadcastsInDim S256 (![] : Fin 0 → Fin S256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  shapeCasts_S256x1_S1x256 : S256x1.ShapeCasts S1x256
  shapeCasts_S256_S1x256 : S256.ShapeCasts S1x256
  shapeCasts_S1_S1x1 : S1.ShapeCasts S1x1
  inb_S32x256x64_S32x256x64_0_0_0 : ∀ a, (![0, 0, 0] : Fin 3 → Nat) a + S32x256x64.size a ≤ S32x256x64.size a
  h_S32x256x64 : 0 < S32x256x64.numel
  shapeCasts_S32x256x64_S32x256x64 : S32x256x64.ShapeCasts S32x256x64
  shapeCasts_S32x256x64_S8192x64 : S32x256x64.ShapeCasts S8192x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x256_S256x256_0_0 : ∀ a, (![0, 0] : Fin 2 → Nat) a + S256x256.size a ≤ S256x256.size a
  h_S256x256 : 0 < S256x256.numel
  shapeCasts_S8192x256_S32x256x256 : S8192x256.ShapeCasts S32x256x256
  shapeCasts_S1x256_S1x1x256 : S1x256.ShapeCasts S1x1x256
  broadcasts_S1x1x256_S32x256x256 : S1x1x256.Broadcasts S32x256x256
  reduces_S32x256x256_S32x256 : S32x256x256.Reduces [2] S32x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x256 : S1x1.Broadcasts S32x256
  inb_S32x256_S32x256_0_0 : ∀ a, (![0, 0] : Fin 2 → Nat) a + S32x256.size a ≤ S32x256.size a
  h_S32x256 : 0 < S32x256.numel
  dot_S8192x64_S64x256_S8192x256_1_0_0_1_n_n_wf : DotDims.WF S8192x64 S64x256 S8192x256 [1] [0] [0] [1] [] []
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x64.size a ≤ S256x2048x64.size a
  hwx0_0 : ∀ i : grid0.Coords, EltTy.bits .f32 = 32 ∨ (Rect.block (s := S256x2048x64) S32x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S256x2048.size a
  hwx0_1 : ∀ i : grid0.Coords, EltTy.bits .i32 = 32 ∨ (Rect.block (s := S256x2048) S32x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x256.size a ≤ S256x2048.size a
  hwx0_8 : ∀ i : grid0.Coords, EltTy.bits .f32 = 32 ∨ (Rect.block (s := S256x2048) S32x256.size (cc0_transform_8 i) (hinb0_8 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v0) S32x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S32x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x131072 : Shape := ⟨2, ![256, 131072]⟩
abbrev S256x2048 : Shape := ⟨2, ![256, 2048]⟩
abbrev S64x256 : Shape := ⟨2, ![64, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S524288x64 : Shape := ⟨2, ![524288, 64]⟩
abbrev S524288x256 : Shape := ⟨2, ![524288, 256]⟩
abbrev S1x256 : Shape := ⟨2, ![1, 256]⟩
abbrev S_ : Shape := ⟨0, ![]⟩
abbrev S524288x1 : Shape := ⟨2, ![524288, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S256x131072, .f32⟩
  | .hbm, ⟨1, _⟩ => ⟨S256x2048, .i32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S524288x64, .f32⟩
  | .hbm, ⟨13, _⟩ => ⟨S524288x256, .f32⟩
  | .hbm, ⟨14, _⟩ => ⟨S1x256, .f32⟩
  | .hbm, ⟨15, _⟩ => ⟨S524288x256, .f32⟩
  | .hbm, ⟨16, _⟩ => ⟨S524288x256, .f32⟩
  | .hbm, ⟨17, _⟩ => ⟨S1x256, .f32⟩
  | .hbm, ⟨18, _⟩ => ⟨S524288x256, .f32⟩
  | .hbm, ⟨19, _⟩ => ⟨S524288x256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S1x256, .f32⟩
  | .hbm, ⟨26, _⟩ => ⟨S524288x256, .f32⟩
  | .hbm, ⟨27, _⟩ => ⟨S524288x256, .f32⟩
  | .hbm, ⟨28, _⟩ => ⟨S1x256, .f32⟩
  | .hbm, ⟨29, _⟩ => ⟨S524288x256, .f32⟩
  | .hbm, ⟨30, _⟩ => ⟨S524288x256, .f32⟩
  | .hbm, ⟨31, _⟩ => ⟨S_, .f32⟩
  | .hbm, ⟨32, _⟩ => ⟨S524288x256, .f32⟩
  | .hbm, ⟨33, _⟩ => ⟨S524288x256, .f32⟩
  | .hbm, ⟨34, _⟩ => ⟨S524288x256, .f32⟩
  | .hbm, ⟨35, _⟩ => ⟨S1x256, .f32⟩
  | .hbm, ⟨36, _⟩ => ⟨S524288x256, .f32⟩
  | .hbm, ⟨37, _⟩ => ⟨S524288x256, .f32⟩
  | .hbm, ⟨38, _⟩ => ⟨S_, .f32⟩
  | .hbm, ⟨39, _⟩ => ⟨S524288x256, .f32⟩
  | .hbm, ⟨40, _⟩ => ⟨S524288x256, .f32⟩
  | .hbm, ⟨41, _⟩ => ⟨S524288x1, .f32⟩
  | .hbm, ⟨42, _⟩ => ⟨S1x1, .f32⟩
  | .hbm, ⟨43, _⟩ => ⟨S524288x1, .f32⟩
  | .hbm, ⟨44, _⟩ => ⟨S524288x1, .f32⟩
  | .hbm, ⟨45, _⟩ => ⟨S524288x1, .i32⟩
  | .hbm, ⟨46, _⟩ => ⟨S_, .i32⟩
  | .hbm, ⟨47, _⟩ => ⟨S524288x1, .i32⟩
  | .hbm, ⟨48, _⟩ => ⟨S524288x1, .i1⟩
  | .hbm, ⟨49, _⟩ => ⟨S_, .f32⟩
  | .hbm, ⟨50, _⟩ => ⟨S524288x1, .f32⟩
  | .hbm, ⟨51, _⟩ => ⟨S524288x1, .f32⟩
  | .hbm, ⟨52, _⟩ => ⟨S256x2048, .f32⟩
  | _, _ => ⟨S256x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_call2_v0 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  shapeCasts_S256x131072_S524288x64 : S256x131072.ShapeCasts S524288x64
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S256 : S_.BroadcastsInDim S256 (![] : Fin 0 → Fin S256.rank)
  bcast_S_S524288x256 : S_.BroadcastsInDim S524288x256 (![] : Fin 0 → Fin S524288x256.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S256x2048_S524288x1 : S256x2048.ShapeCasts S524288x1
  bcast_S_S524288x1 : S_.BroadcastsInDim S524288x1 (![] : Fin 0 → Fin S524288x1.rank)
  shapeCasts_S524288x1_S256x2048 : S524288x1.ShapeCasts S256x2048
  dot_S524288x64_S64x256_S524288x256_1_0_0_1_n_n_wf : DotDims.WF S524288x64 S64x256 S524288x256 [1] [0] [0] [1] [] []
  dot_S524288x256_S256x256_S524288x256_1_0_0_1_n_n_wf : DotDims.WF S524288x256 S256x256 S524288x256 [1] [0] [0] [1] [] []
  dot_S524288x256_S256x1_S524288x1_1_0_0_1_n_n_wf : DotDims.WF S524288x256 S256x1 S524288x1 [1] [0] [0] [1] [] []

variable [Facts₀]

def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.MlpSpec.lean ====
/-
  A masked three-layer perceptron applied to every row of a batch, with an evaluation-mode batch normalisation after
  the first layer, as one function of its argument arrays — and the two laws that let the normalisation be folded
  into the first layer's weights.

  For a row x ∈ ℝ^64, weights W1 (64×256), b1, a per-feature scale s_j = γ_j / √(var_j + ε), shift β_j and mean μ_j:
      ((Σ_k x_k·W1_kj + b1_j) − μ_j)·s_j + β_j  =  Σ_k x_k·(W1_kj·s_j) + ((b1_j − μ_j)·s_j + β_j)
  is distributivity, which on the extended reals needs every quantity finite; and for var_j ≥ 0 and ε > 0 the scale
  is a real number, the same whether spelt γ·rsqrt(var + ε) or γ / sqrt(var + ε).
-/
import Mathlib
import Idealize.ShloMosaic.PureOps.Ideal
import Idealize.ShloMosaic.Lib.ValueIdx
import proofs.«171817_j43997644980641_2_alg».proof.Proof.LibMoments

noncomputable section

namespace MaskedMlp

open Idealize.ShloMosaic Idealize.ShloMosaic.ValueIdx Moments

/-- The word of ε = 1e-5 (as a binary32 number) denotes a positive real. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- For a finite γ, a finite variance v ≥ 0 and ε > 0: γ·rsqrt(v + ε) and γ / sqrt(v + ε) are one finite number. -/
theorem scale_eq (g v e : EReal) (hg : Fin' g) (hv : Fin' v) (hv0 : 0 ≤ v) (he : ∃ r : ℝ, 0 < r ∧ e = (r : EReal)) :
    g * Ideal.rsqrt (v + e) = Ideal.div g (Ideal.sqrt (v + e)) ∧ Fin' (g * Ideal.rsqrt (v + e)) := by
  obtain ⟨g, rfl⟩ := hg
  obtain ⟨v, rfl⟩ := hv
  obtain ⟨e, he, rfl⟩ := he
  have hv' : (0 : ℝ) ≤ v := by exact_mod_cast hv0
  have hpos : 0 < v + e := by linarith
  have hs : 0 < Real.sqrt (v + e) := Real.sqrt_pos.mpr hpos
  rw [← EReal.coe_add, Ideal.rsqrt_coe, Ideal.sqrt_coe, if_neg (not_lt.mpr hpos.le), if_neg hpos.ne',
    if_neg (not_lt.mpr hpos.le), Ideal.div_coe hs.ne', one_div]
  exact ⟨rfl, ⟨g * (Real.sqrt (v + e))⁻¹, (EReal.coe_mul _ _).symm⟩⟩

/-- Folding a per-feature affine map into a dot product's weights and bias, for finite quantities. -/
theorem bn_fold {n : ℕ} (x w : Fin n → EReal) (b μ β s : EReal)
    (hx : ∀ k, Fin' (x k)) (hw : ∀ k, Fin' (w k)) (hb : Fin' b) (hμ : Fin' μ) (hβ : Fin' β) (hs : Fin' s) :
    (∑ k, x k * (w k * s)) + ((b - μ) * s + β) = (((∑ k, x k * w k) + b) - μ) * s + β := by
  choose xr hxr using hx
  choose wr hwr using hw
  obtain ⟨b, rfl⟩ := hb
  obtain ⟨μ, rfl⟩ := hμ
  obtain ⟨β, rfl⟩ := hβ
  obtain ⟨s, rfl⟩ := hs
  simp only [hxr, hwr, ← EReal.coe_mul, ← EReal.coe_add, ← EReal.coe_sub, ← coe_sum]
  congr 1
  have h : ∑ k, xr k * (wr k * s) = (∑ k, xr k * wr k) * s := by
    rw [Finset.sum_mul]; exact Finset.sum_congr rfl fun k _ => by ring
  rw [h]; ring

/-! ## The network as one function of its argument arrays -/

/-- The activation's zero, the fill value −1e8 for masked-out rows, and ε, each kept as the word both programs spell. -/
abbrev zeroW : EReal := Ideal.ofBits .f32 0x00000000#32
abbrev fillW : EReal := Ideal.ofBits .f32 0xCCBEBC20#32
abbrev epsW : EReal := Ideal.ofBits .f32 0x3727C5AC#32

/-- From the first hidden row h1 (already rectified) to the row's score:
    Σ_i max(Σ_j h1_j·W2_ji + b2_i, 0)·w3_i + b3. -/
def score (h1 : Fin 256 → EReal) (W2 : Fin 256 → Fin 256 → EReal) (c2 w3 : Fin 256 → EReal) (c3 : EReal) : EReal :=
  (∑ i : Fin 256, max ((∑ j : Fin 256, h1 j * W2 j i) + c2 i) zeroW * w3 i) + c3

/-- A row whose mask word is nonzero keeps its score; the others get the fill value. -/
def masked (mk : BitVec 32) (y : EReal) : EReal := Scalar.select (IntOp.cmpi .ne mk 0#32) y fillW

/-- Feature k of node n of batch row b sits at column n·64 + k of the [256, 131072] observation array. -/
def obsIdx (b : Fin 256) (n : Fin 2048) (k : Fin 64) : (⟨2, ![256, 131072]⟩ : Shape).Idx :=
  ix2 b ⟨n.val * 64 + k.val, by have := n.isLt; have := k.isLt; omega⟩

section
variable (obs : (⟨2, ![256, 131072]⟩ : Shape).Idx → EReal) (W1 : (⟨2, ![64, 256]⟩ : Shape).Idx → EReal)
  (b1 gamma beta mean var : (⟨1, ![256]⟩ : Shape).Idx → EReal)

/-- The first layer before its activation, normalisation applied to the layer's output:
    ((Σ_k x_k·W1_kj + b1_j) − μ_j)·(γ_j / √(var_j + ε)) + β_j. -/
def pre1 (b : Fin 256) (n : Fin 2048) (j : Fin 256) : EReal :=
  (((∑ k : Fin 64, obs (obsIdx b n k) * W1 (ix2 k j)) + b1 (ix1 j)) - mean (ix1 j))
      * Ideal.div (gamma (ix1 j)) (Ideal.sqrt (var (ix1 j) + epsW)) + beta (ix1 j)

/-- The same with the normalisation folded into the weights and the bias:
    Σ_k x_k·(W1_kj·s_j) + ((b1_j − μ_j)·s_j + β_j) with s_j = γ_j·rsqrt(var_j + ε). -/
def pre1Folded (b : Fin 256) (n : Fin 2048) (j : Fin 256) : EReal :=
  (∑ k : Fin 64, obs (obsIdx b n k) * (W1 (ix2 k j) * (gamma (ix1 j) * Ideal.rsqrt (var (ix1 j) + epsW))))
    + ((b1 (ix1 j) - mean (ix1 j)) * (gamma (ix1 j) * Ideal.rsqrt (var (ix1 j) + epsW)) + beta (ix1 j))

/-- For finite inputs and nonnegative variances the two are one number. -/
theorem pre1Folded_eq (hobs : ∀ i, Fin' (obs i)) (hW1 : ∀ i, Fin' (W1 i)) (hb1 : ∀ i, Fin' (b1 i))
    (hgamma : ∀ i, Fin' (gamma i)) (hbeta : ∀ i, Fin' (beta i)) (hmean : ∀ i, Fin' (mean i))
    (hvar : ∀ i, Fin' (var i)) (hvar0 : ∀ i, 0 ≤ var i) (b : Fin 256) (n : Fin 2048) (j : Fin 256) :
    pre1Folded obs W1 b1 gamma beta mean var b n j = pre1 obs W1 b1 gamma beta mean var b n j := by
  obtain ⟨hs, hfin⟩ := scale_eq (gamma (ix1 j)) (var (ix1 j)) epsW (hgamma _) (hvar _) (hvar0 _) eps_pos
  unfold pre1Folded pre1
  rw [← hs]
  exact bn_fold (fun k => obs (obsIdx b n k)) (fun k => W1 (ix2 k j)) _ _ _ _ (fun k => hobs _) (fun k => hW1 _)
    (hb1 _) (hmean _) (hbeta _) hfin
end

/-- One entry of the result: the masked score of one row, from the row's first-layer pre-activations. -/
def outAt (pre : Fin 256 → EReal) (mk : BitVec 32) (W2 : (⟨2, ![256, 256]⟩ : Shape).Idx → EReal)
    (b2 : (⟨1, ![256]⟩ : Shape).Idx → EReal) (W3 : (⟨2, ![256, 1]⟩ : Shape).Idx → EReal)
    (b3 : (⟨1, ![1]⟩ : Shape).Idx → EReal) : EReal :=
  masked mk (score (fun j => max (pre j) zeroW) (fun j i => W2 (ix2 j i)) (fun i => b2 (ix1 i))
    (fun i => W3 (ix2 i (0 : Fin 1))) (b3 (ix1 (0 : Fin 1))))

end MaskedMlp

end
-- ==== Proof.FiniteInputs.lean ====
/-
  What the precondition says, read back entry by entry: every entry of the observations, of the first layer's weights
  and bias, and of the normalisation's scale γ, shift β, running mean and running variance is a real number (an extended
  real whose absolute value is below +∞), and every running variance is ≥ 0.
-/
import proofs.«171817_j43997644980641_2_alg».proof.Pre_finite_inputs
import Idealize.ShloMosaic.PureOps.Ideal.Laws
import Idealize.ShloMosaic.Lib.ReduceAll
import Idealize.ShloMosaic.Lib.ValueIdx
import proofs.«171817_j43997644980641_2_alg».proof.Proof.LibMoments

noncomputable section

namespace Cert.Pre_finite_inputs.Decode

open Cert.Pre_finite_inputs Idealize.ShloMosaic Moments

instance : Subsingleton S_.Idx := ⟨fun _ _ => funext fun d => d.elim0⟩

/-- The word 0x7F800000 denotes +∞. -/
theorem inf_word : Ideal.ofBits .f32 0x7F800000#32 = ⊤ := by simp [Ideal.ofBits, Ideal.ieee]

/-- The word 0x00000000 denotes 0. -/
theorem zero_word : Ideal.ofBits .f32 0x00000000#32 = 0 := Ideal.ofBits_zero_f32

/-- An extended real with |x| < +∞ is a real number. -/
theorem fin_of_abs_lt (x : EReal) (h : Ideal.cmp .olt (max x (-x)) (Ideal.ofBits .f32 0x7F800000#32) = 1#1) : Fin' x := by
  rw [inf_word] at h
  have h' : max x (-x) < ⊤ := by
    by_contra hc
    simp [Ideal.cmp, hc] at h
  induction x using EReal.rec with
  | bot => simp at h'
  | coe r => exact ⟨r, rfl⟩
  | top => simp at h'

/-- An extended real that compares ≥ the zero word is ≥ 0. -/
theorem nonneg_of_ge (x : EReal) (h : Ideal.cmp .oge x (Ideal.ofBits .f32 0x00000000#32) = 1#1) : 0 ≤ x := by
  rw [zero_word] at h
  by_contra hc
  simp [Ideal.cmp, hc] at h

/-- The precondition, decoded. -/
theorem decode [Facts] (a0 : FVec Ideal S256x131072 .f32) (a1 : IVec S256x2048 32) (a2 : FVec Ideal S64x256 .f32)
    (a3 a4 a5 a6 a7 : FVec Ideal S256 .f32) (a8 : FVec Ideal S256x256 .f32) (a9 : FVec Ideal S256 .f32)
    (a10 : FVec Ideal S256x1 .f32) (a11 : FVec Ideal S1 .f32)
    (h : fn (F := Ideal) a0 a1 a2 a3 a4 a5 a6 a7 a8 a9 a10 a11 = fun _ => 1#1) :
    (∀ i, Fin' (a0 i)) ∧ (∀ i, Fin' (a2 i)) ∧ (∀ i, Fin' (a3 i)) ∧ (∀ i, Fin' (a4 i)) ∧ (∀ i, Fin' (a5 i))
      ∧ (∀ i, Fin' (a6 i)) ∧ (∀ i, Fin' (a7 i)) ∧ (∀ i, 0 ≤ a7 i) := by
  have h0 := congrFun h ValueIdx.ix0
  dsimp only [fn, fn_part1, fn_part2, fn_part3, andi] at h0
  simp only [IntOp.andi_eq_one] at h0
  obtain ⟨⟨⟨⟨⟨⟨⟨⟨⟨⟨⟨h3, h7⟩, h12⟩, h17⟩, h22⟩, h27⟩, h32⟩, -⟩, -⟩, -⟩, -⟩, h56⟩ := h0
  exact ⟨fun i => fin_of_abs_lt _ (Host.reduce_andi_all _ _ _ _ _ h3 i),
    fun i => fin_of_abs_lt _ (Host.reduce_andi_all _ _ _ _ _ h7 i),
    fun i => fin_of_abs_lt _ (Host.reduce_andi_all _ _ _ _ _ h12 i),
    fun i => fin_of_abs_lt _ (Host.reduce_andi_all _ _ _ _ _ h17 i),
    fun i => fin_of_abs_lt _ (Host.reduce_andi_all _ _ _ _ _ h22 i),
    fun i => fin_of_abs_lt _ (Host.reduce_andi_all _ _ _ _ _ h27 i),
    fun i => fin_of_abs_lt _ (Host.reduce_andi_all _ _ _ _ _ h32 i),
    fun i => nonneg_of_ge _ (Host.reduce_andi_all _ _ _ _ _ h56 i)⟩

end Cert.Pre_finite_inputs.Decode

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibDenseLayer.lean ====
/-
  A dense layer with a rectified-linear activation, read at an entry, at the exact (extended-real) values.

  For an M×K matrix X, a K×N matrix W and a bias kept as one row [1, N] that is copied into every row of the product,
  the entry (r, c) of  max(X·W + bias, z)  is  max(Σ_k X(r, k)·W(k, c) + bias(0, c), z).
  Beside it: a [1, 1] array copied out to [a, b] reads its one entry everywhere.
-/
import Idealize.ShloMosaic.Lib.ValueLayout
import Idealize.ShloMosaic.PureOps.Ideal.Laws
import proofs.«171817_j43997644980641_2_alg».proof.Proof.LibPlainMatmul

noncomputable section

namespace Cert.LibDenseLayer

open Idealize.ShloMosaic Idealize.ShloMosaic.ValueIdx

/-- A `[1, 1]` array broadcast to `[a, b]` reads, at `(p, q)`, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The entry (r, c) of max(X·W + bias row, z) is max(Σ_k X(r, k)·W(k, c) + bias(0, c), z). -/
theorem relu_dense_apply {M K N : ℕ} {φ₁ φ₂ : FTy} (X : FVec Ideal ⟨2, ![M, K]⟩ φ₁) (W : FVec Ideal ⟨2, ![K, N]⟩ φ₂)
    (bias : FVec Ideal ⟨2, ![1, N]⟩ .f32) (hb : (⟨2, ![1, N]⟩ : Shape).Broadcasts ⟨2, ![M, N]⟩) (z : EReal)
    (r : Fin M) (c : Fin N) :
    maximumf (addf (FloatOps.matmul (DotDims.plain M K N) none X W (constant (F := Ideal) ⟨2, ![M, N]⟩ .f32 0x00000000#32))
        (broadcastTo ⟨2, ![M, N]⟩ bias hb)) (broadcast ⟨2, ![M, N]⟩ z) (ix2 r c)
      = max ((∑ k : Fin K, X (ix2 r k) * W (ix2 k c)) + bias (ix2 (0 : Fin 1) c)) z := by
  rw [maximumf_apply, addf_apply, PlainMatmul.apply_zero, broadcastTo_1b_ab_apply]
  rfl

end Cert.LibDenseLayer

end
-- ==== Proof.LibLaneSum.lean ====
/-
  Two readings at an index written by coordinates, for a body that weights the last ("lane") axis of a rank-3 array by a
  vector and then sums that axis away.

  • A vector seen as a rank-3 array, [c] → [1, 1, c], reads (·, ·, d) at d: a shape cast keeps the row-major position,
    and the two unit axes contribute nothing to it.
  • That array broadcast along both leading axes, [1, 1, c] → [a, b, c], reads (p, q, d) at (0, 0, d).
  • At the exact (extended-real) values, the sum of an [a, b, c] array over its last axis, read at (p, q), is the sum
    over d of the entries (p, q, d): the source index over (p, q) with d inserted on the summed axis is (p, q, d).
-/
import Idealize.ShloMosaic.Lib.ValueLayout
import Idealize.ShloMosaic.PureOps.Ideal.Laws

namespace Cert.LibLaneSum

open Idealize.ShloMosaic Idealize.ShloMosaic.ValueIdx

variable {α : Type}

/-- A `[c]` vector cast to `[1, 1, c]` reads, at `(u, v, d)`, the operand at `d`, whatever the unit coordinates. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_one, Shape.rowMajor_val_three]
    show d.val = (u.val * 1 + v.val) * c + d.val
    rw [hu, hv]
    simp)

/-- A `[1, 1, c]` array broadcast to `[a, b, c]` reads, at `(p, q, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (d : Fin c) :
    broadcastTo ⟨3, ![a, b, c]⟩ v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- Over the result index `(p, q)` of a sum along the last axis of an `[a, b, c]` array, the source index with `d` on
    the summed axis is `(p, q, d)`. -/
theorem lift_last_ix3 {a b c : ℕ} (h : (⟨3, ![a, b, c]⟩ : Shape).Reduces [2] ⟨2, ![a, b]⟩) (p : Fin a) (q : Fin b) (d : Fin c) :
    h.lift (ix2 p q) d = ix3 p q d := by
  funext ax
  match ax with
  | ⟨0, _⟩ => rfl
  | ⟨1, _⟩ => rfl
  | ⟨2, _⟩ => rfl

/-- At the exact values, an `<add>` reduction of an `[a, b, c]` array along its last axis, read at `(p, q)`, is the sum
    over `d` of the entries `(p, q, d)`. The accumulator word's side condition is taken in whatever spelling the
    caller's term carries it. -/
theorem multiReduction_add_last_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ d : Fin c, src (ix3 p q d) := by
  refine (Ideal.multiReduction_add_single src acc h hφ hacc (ix2 p q)).trans ?_
  exact Finset.sum_congr rfl fun d _ => congrArg src (lift_last_ix3 h p q d)

end Cert.LibLaneSum
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.KernelBody.lean ====
/-
  What the kernel body computes for one block, read at one entry. A block holds 32 batch rows × 256 nodes; the body merges
  them into 8192 rows (row p·256 + q for batch row p and node q of the block), runs the two dense layers on the merged rows,
  splits the rows again, weights the 256 hidden features by the last layer's row vector and sums them, adds the last bias
  and masks. So the entry (p, q) of what it stores is the masked score of the block's row (p, q): its first hidden row is
  max(Σ_k x(p,q,k)·W1f(k,j) + b1f(j), 0) over the weights and bias the body was handed.
-/
import proofs.«171817_j43997644980641_2_alg».proof.Proof.Gen.KernelIdeal.Skeleton
import Idealize.ShloMosaic.Lib.Pipeline.Value
import Idealize.ShloMosaic.Lib.ValueLayout
import proofs.«171817_j43997644980641_2_alg».proof.Proof.LibDenseLayer
import proofs.«171817_j43997644980641_2_alg».proof.Proof.LibLaneSum
import proofs.«171817_j43997644980641_2_alg».proof.Proof.LibFlattenBroadcast
import proofs.«171817_j43997644980641_2_alg».proof.Proof.MlpSpec

noncomputable section

namespace Cert.KernelIdeal.Body

open Cert.KernelIdeal Cert.KernelIdeal.Gen Idealize.ShloMosaic Idealize.ShloMosaic.ValueIdx MaskedMlp

/-- A rounding to bf16 on the way into a product is the identity on exact values: drop it where the term still spells it. -/
local macro "unround" : tactic =>
  `(tactic| first | refine (truncf_apply (ψ := .bf16) (φ := .f32) _ _ _).trans ?_ | skip)

/-- The block's scores before masking, at (p, q). -/
theorem scores_apply (v0 : Vec Ideal S32x256x64 .f32) (v4 : Vec Ideal S64x256 .f32) (v8 : Vec Ideal S1x256 .f32)
    (v15 : Vec Ideal S256x256 .f32) (v18 v25 : Vec Ideal S1x256 .f32) (v31 : Vec Ideal S1x1 .f32) (p : Fin 32) (q : Fin 256) :
    k0_pay2 (F := Ideal) v0 v4 v8 v15 v18 v25 v31 (ix2 p q)
      = score (fun j => max ((∑ k : Fin 64, v0 (ix3 p q k) * v4 (ix2 k j)) + v8 (ix2 (0 : Fin 1) j)) zeroW)
          (fun j i => v15 (ix2 j i)) (fun i => v18 (ix2 (0 : Fin 1) i)) (fun i => v25 (ix2 (0 : Fin 1) i))
          (v31 (ix2 (0 : Fin 1) (0 : Fin 1))) := by
  have hr : (⟨p.val * 256 + q.val, by have := p.isLt; have := q.isLt; omega⟩ : Fin 8192).val = p.val * 256 + q.val := rfl
  unfold k0_pay2 score
  dsimp only
  rw [addf_apply]
  refine congrArg₂ (· + ·) ?_ ?_
  · refine (Cert.LibLaneSum.multiReduction_add_last_apply _ _ _ _ _ p q).trans ?_
    refine Finset.sum_congr rfl fun i _ => ?_
    rw [mulf_apply]
    refine congrArg₂ (· * ·) ?_ ?_
    · refine (Cert.LibFlattenBroadcast.shapeCast_nc_abc_apply _ _ p q i _ hr).trans ?_
      refine (Cert.LibDenseLayer.relu_dense_apply _ _ _ _ _ _ i).trans ?_
      refine congrArg₂ max (congrArg₂ (· + ·) (Finset.sum_congr rfl fun j _ => congrArg₂ (· * ·) ?_ ?_) ?_) rfl
      · unround
        refine (Cert.LibDenseLayer.relu_dense_apply _ _ _ _ _ _ j).trans ?_
        refine congrArg₂ max (congrArg₂ (· + ·) (Finset.sum_congr rfl fun k _ => congrArg₂ (· * ·) ?_ ?_) ?_) rfl
        · unround
          refine (Cert.LibFlattenBroadcast.shapeCast_abc_nc_apply _ _ p q k _ hr).trans ?_
          exact congrFun (shapeCast_self v0 _) _
        · unround
          exact congrFun (shapeCast_self v4 _) _
        · exact congrFun (shapeCast_self v8 _) _
      · unround
        rfl
      · exact congrFun (shapeCast_self v18 _) _
    · refine (Cert.LibLaneSum.broadcastTo_11c_abc_apply _ _ p q i).trans ?_
      refine (shapeCast_ab_1ab_apply _ _ _ _ _).trans ?_
      exact congrFun (shapeCast_self v25 _) _
  · refine (Cert.LibDenseLayer.broadcastTo_11_ab_apply _ _ p q).trans ?_
    exact congrFun (shapeCast_self v31 _) _

/-- What the body stores, at (p, q): the masked score of the block's row (p, q). -/
theorem payload_apply (v0 : Vec Ideal S32x256x64 .f32) (v1 : Vec Ideal S32x256 .i32) (v4 : Vec Ideal S64x256 .f32)
    (v8 : Vec Ideal S1x256 .f32) (v15 : Vec Ideal S256x256 .f32) (v18 v25 : Vec Ideal S1x256 .f32) (v31 : Vec Ideal S1x1 .f32)
    (p : Fin 32) (q : Fin 256) :
    k0_pay1 (F := Ideal) (k0_pay2 v0 v4 v8 v15 v18 v25 v31) v1 (ix2 p q)
      = masked (v1 (ix2 p q))
          (score (fun j => max ((∑ k : Fin 64, v0 (ix3 p q k) * v4 (ix2 k j)) + v8 (ix2 (0 : Fin 1) j)) zeroW)
            (fun j i => v15 (ix2 j i)) (fun i => v18 (ix2 (0 : Fin 1) i)) (fun i => v25 (ix2 (0 : Fin 1) i))
            (v31 (ix2 (0 : Fin 1) (0 : Fin 1)))) := by
  rw [← scores_apply]
  rfl

end Cert.KernelIdeal.Body

end
-- ==== Proof.KernelHost.lean ====
/-
  The arrays the kernel is launched on, as functions of the program's arguments. Before the launch the host folds the
  normalisation into the first layer — s_j = γ_j·rsqrt(var_j + ε), W1f(k, j) = W1(k, j)·s_j, b1f(j) = (b1_j − μ_j)·s_j + β_j —,
  views the observations as [256, 2048, 64] (feature k of node n in column n·64 + k), and lays the bias vectors and the last
  layer's column out as rows.
-/
import proofs.«171817_j43997644980641_2_alg».proof.Proof.Gen.KernelIdeal.Frame
import Idealize.ShloMosaic.Lib.StableHlo.Run
import Idealize.ShloMosaic.Lib.Pipeline.Value
import Idealize.ShloMosaic.Lib.ValueLayout
import proofs.«171817_j43997644980641_2_alg».proof.Proof.MlpSpec

noncomputable section

namespace Cert.KernelIdeal.HostValue

open Cert.KernelIdeal Cert.KernelIdeal.Gen Idealize.ShloMosaic Idealize.ShloMosaic.TcCoe Idealize.SL.Sem
open Idealize.ShloMosaic.ValueIdx Idealize.ShloMosaic.StableHlo MaskedMlp

variable (m : (ℓ : Loc nD τ sig) → Buf (Elt Ideal) ℓ)

/-- The program's arguments on core c, each as a function of its index. -/
abbrev obsA (c : Dev nD) : S256x131072.Idx → EReal := m ((c : Thread nD τ).loc main_arg0)
abbrev maskA (c : Dev nD) : S256x2048.Idx → BitVec 32 := m ((c : Thread nD τ).loc main_arg1)
abbrev w1A (c : Dev nD) : S64x256.Idx → EReal := m ((c : Thread nD τ).loc main_arg2)
abbrev b1A (c : Dev nD) : S256.Idx → EReal := m ((c : Thread nD τ).loc main_arg3)
abbrev gammaA (c : Dev nD) : S256.Idx → EReal := m ((c : Thread nD τ).loc main_arg4)
abbrev betaA (c : Dev nD) : S256.Idx → EReal := m ((c : Thread nD τ).loc main_arg5)
abbrev meanA (c : Dev nD) : S256.Idx → EReal := m ((c : Thread nD τ).loc main_arg6)
abbrev varA (c : Dev nD) : S256.Idx → EReal := m ((c : Thread nD τ).loc main_arg7)
abbrev w2A (c : Dev nD) : S256x256.Idx → EReal := m ((c : Thread nD τ).loc main_arg8)
abbrev b2A (c : Dev nD) : S256.Idx → EReal := m ((c : Thread nD τ).loc main_arg9)
abbrev w3A (c : Dev nD) : S256x1.Idx → EReal := m ((c : Thread nD τ).loc main_arg10)
abbrev b3A (c : Dev nD) : S1.Idx → EReal := m ((c : Thread nD τ).loc main_arg11)

/-- The folded scale vector s, as the host computes it. -/
abbrev scaleVec (c : Dev nD) : S256.Idx → EReal :=
  mulf (F := Ideal) (φ := .f32) (gammaA m c)
    (Host.rsqrt (F := Ideal) (φ := .f32) (addf (F := Ideal) (φ := .f32) (varA m c)
      (broadcastInDim S256 ![] bcast_S_S256 (constant (F := Ideal) S_ .f32 0x3727C5AC#32))))

theorem scaleVec_apply (c : Dev nD) (j : Fin 256) :
    scaleVec m c (ix1 j) = (gammaA m c) (ix1 j)
      * Ideal.rsqrt ((varA m c) (ix1 j) + epsW) := rfl

/-- The observations as the region finds them: entry (b, n, k) is column n·64 + k of row b. -/
theorem obs_apply (c : Dev nD) (b : Fin 256) (n : Fin 2048) (k : Fin 64) :
    (V m c main_v0 : S256x2048x64.Idx → EReal) (ix3 b n k)
      = (obsA m c) (obsIdx b n k) := by
  have e : (V m c main_v0 : S256x2048x64.Idx → EReal)
      = shapeCast S256x2048x64 (obsA m c) shapeCasts_S256x131072_S256x2048x64 := by
    dsimp only [V, hostOps0]; after_results; rfl
  rw [e]
  refine shapeCast_apply _ _ _ _ ?_
  show (S256x131072.rowMajor (obsIdx b n k)).val = (S256x2048x64.rowMajor (ix3 b n k)).val
  rw [Shape.rowMajor_val_two, Shape.rowMajor_val_three]
  show b.val * 131072 + (n.val * 64 + k.val) = (b.val * 2048 + n.val) * 64 + k.val
  omega

/-- The folded first-layer weights. -/
theorem w1f_apply (c : Dev nD) (k : Fin 64) (j : Fin 256) :
    (V m c main_v7 : S64x256.Idx → EReal) (ix2 k j)
      = (w1A m c) (ix2 k j) * scaleVec m c (ix1 j) := by
  have e : (V m c main_v7 : S64x256.Idx → EReal)
      = mulf (F := Ideal) (φ := .f32) (w1A m c)
          (broadcastInDim S64x256 ![0, 1] bcast_S1x256_S64x256_0_1 (broadcastInDim S1x256 ![1] bcast_S256_S1x256_1 (scaleVec m c))) := by
    dsimp only [V, hostOps0]; after_results
  rw [e, mulf_apply]
  refine congrArg₂ (· * ·) rfl ?_
  refine (broadcastInDim_apply _ _ _ (ix2 k j) (ix2 (0 : Fin 1) j) (fun a => by match a with | ⟨0, _⟩ => rfl | ⟨1, _⟩ => rfl)).trans ?_
  exact broadcastInDim_apply _ _ _ (ix2 (0 : Fin 1) j) (ix1 j) (fun a => by match a with | ⟨0, _⟩ => rfl)

/-- The folded first-layer bias, as a row. -/
theorem b1f_apply (c : Dev nD) (j : Fin 256) :
    (V m c main_v12 : S1x256.Idx → EReal) (ix2 (0 : Fin 1) j)
      = ((b1A m c) (ix1 j) - (meanA m c) (ix1 j))
          * scaleVec m c (ix1 j) + (betaA m c) (ix1 j) := by
  have e : (V m c main_v12 : S1x256.Idx → EReal)
      = shapeCast S1x256 (addf (F := Ideal) (φ := .f32) (mulf (F := Ideal) (φ := .f32) (subf (F := Ideal) (φ := .f32) (b1A m c) (meanA m c)) (scaleVec m c))
          (betaA m c)) shapeCasts_S256_S1x256 := by
    dsimp only [V, hostOps0]; after_results; rfl
  rw [e]
  exact shapeCast_a_1a_apply _ _ _ _

/-- The second layer's bias as a row. -/
theorem b2_apply (c : Dev nD) (i : Fin 256) :
    (V m c main_v13 : S1x256.Idx → EReal) (ix2 (0 : Fin 1) i) = (b2A m c) (ix1 i) := by
  have e : (V m c main_v13 : S1x256.Idx → EReal)
      = shapeCast S1x256 (b2A m c) shapeCasts_S256_S1x256 := by
    dsimp only [V, hostOps0]; after_results; rfl
  rw [e]
  exact shapeCast_a_1a_apply _ _ _ _

/-- The last layer's column [256, 1] as a row [1, 256]: both hold entry i at row-major position i. -/
theorem w3_apply (c : Dev nD) (i : Fin 256) :
    (V m c main_v11 : S1x256.Idx → EReal) (ix2 (0 : Fin 1) i) = (w3A m c) (ix2 i (0 : Fin 1)) := by
  have e : (V m c main_v11 : S1x256.Idx → EReal)
      = shapeCast S1x256 (w3A m c) shapeCasts_S256x1_S1x256 := by
    dsimp only [V, hostOps0]; after_results; rfl
  rw [e]
  refine shapeCast_apply _ _ _ _ ?_
  show (S256x1.rowMajor (ix2 i (0 : Fin 1))).val = (S1x256.rowMajor (ix2 (0 : Fin 1) i)).val
  rw [Shape.rowMajor_val_two, Shape.rowMajor_val_two]
  show i.val * 1 + 0 = 0 * 256 + i.val
  omega

/-- The last bias as a [1, 1] array. -/
theorem b3_apply (c : Dev nD) :
    (V m c main_v14 : S1x1.Idx → EReal) (ix2 (0 : Fin 1) (0 : Fin 1)) = (b3A m c) (ix1 (0 : Fin 1)) := by
  have e : (V m c main_v14 : S1x1.Idx → EReal)
      = shapeCast S1x1 (b3A m c) shapeCasts_S1_S1x1 := by
    dsimp only [V, hostOps0]; after_results; rfl
  rw [e]
  exact shapeCast_a_1a_apply _ _ _ _

end Cert.KernelIdeal.HostValue

end
-- ==== Proof.KernelArray.lean ====
/-
  From blocks to the array. The launch runs the body on an 8 × 8 grid; grid point (g0, g1) is handed batch rows
  32·g0 … 32·g0 + 31 and nodes 256·g1 … 256·g1 + 255 of the observations and of the mask, and the whole of every weight
  array, and writes back the same block of the result. So what point t writes back is block t of ONE function of the
  argument arrays — the masked score of row (b, n), normalisation folded into the first layer —, the 64 blocks tile the
  [256, 2048] result, and the result array ends holding that function.
-/
import proofs.«171817_j43997644980641_2_alg».proof.Proof.Gen.KernelIdeal.Value
import proofs.«171817_j43997644980641_2_alg».proof.Proof.KernelBody
import proofs.«171817_j43997644980641_2_alg».proof.Proof.KernelHost

noncomputable section

namespace Cert.KernelIdeal.ArrayValue

open Cert.KernelIdeal Cert.KernelIdeal.Gen Cert.KernelIdeal.HostValue Idealize.ShloMosaic Idealize.ShloMosaic.TcCoe Idealize.SL.Sem
open Idealize.ShloMosaic.Pipeline (Dat)
open Idealize.ShloMosaic.ValueIdx MaskedMlp

variable (m : (ℓ : Loc nD τ sig) → Buf (Elt Ideal) ℓ) (ρ : Dev nD → PrngReg)

/-- The result as one function of the arguments, in the kernel's arrangement: entry (b, n) is the masked score of row
    (b, n), the normalisation folded into the first layer's weights and bias. -/
def folded (c : Dev nD) : Buf (Elt Ideal) ((c : Thread nD τ).loc main_v15) := fun (i : S256x2048.Idx) =>
  outAt (pre1Folded (obsA m c) (w1A m c) (b1A m c) (gammaA m c) (betaA m c) (meanA m c) (varA m c) (i 0) (i 1))
    (maskA m c i) (w2A m c) (b2A m c) (w3A m c) (b3A m c)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: the observations' and the mask's blocks move with the
    result's block, every weight array's block is the whole array, and the result's block indices are below 8. -/
theorem idx_facts : ∀ t : Fin cfg0.N,
    win0_0.index t (0 : Fin 3) = win0_8.index t (0 : Fin 2) ∧ win0_0.index t (1 : Fin 3) = win0_8.index t (1 : Fin 2)
    ∧ win0_0.index t (2 : Fin 3) = 0
    ∧ win0_1.index t (0 : Fin 2) = win0_8.index t (0 : Fin 2) ∧ win0_1.index t (1 : Fin 2) = win0_8.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) ≤ 7 ∧ win0_8.index t (1 : Fin 2) ≤ 7 :=
  (by decide +kernel : ∀ t : Fin grid0.N, _)

/-- Every block of the result is some grid point's. -/
theorem idx_onto : ∀ (q0 : Fin 8) (q1 : Fin 8), ∃ t : Fin cfg0.N, win0_8.index t = ![q0.val, q1.val] :=
  (by decide +kernel : ∀ (q0 : Fin 8) (q1 : Fin 8), ∃ t : Fin grid0.N, win0_8.index t = ![q0.val, q1.val])

/-! ## Each window's block at a point, read at an entry -/

/-- The observations' block: entry (p, q, k) is feature k of node 256·g1 + q of batch row 32·g0 + p. -/
theorem iblk0_apply (c : Dev nD) (t : Fin cfg0.N) (p : Fin 32) (q : Fin 256) (k : Fin 64) (b : Fin 256) (n : Fin 2048)
    (hb : b.val = win0_8.index t (0 : Fin 2) * 32 + p.val) (hn : n.val = win0_8.index t (1 : Fin 2) * 256 + q.val) :
    (iblk m c 0 t : Vec Ideal S32x256x64 .f32) (ix3 p q k) = obsA m c (obsIdx b n k) := by
  obtain ⟨e0, e1, e2, -⟩ := idx_facts t
  rw [← obs_apply m c b n k]
  unfold iblk
  rw [View.read_apply]
  show V m c main_v0 (((cfg0.win 0).blk t).view.emb (ix3 p q k)) = V m c main_v0 (ix3 b n k)
  refine congrArg (V m c main_v0) (funext fun a => Fin.ext ?_)
  match a with
  | ⟨0, _⟩ => show win0_0.index t (0 : Fin 3) * 32 + 1 * p.val = b.val; omega
  | ⟨1, _⟩ => show win0_0.index t (1 : Fin 3) * 256 + 1 * q.val = n.val; omega
  | ⟨2, _⟩ => show win0_0.index t (2 : Fin 3) * 64 + 1 * k.val = k.val; omega

/-- The mask's block. -/
theorem iblk1_apply (c : Dev nD) (t : Fin cfg0.N) (p : Fin 32) (q : Fin 256) :
    (iblk m c 1 t : Vec Ideal S32x256 .i32) (ix2 p q) = maskA m c (((cfg0.win 8).blk t).view.emb (ix2 p q)) := by
  obtain ⟨-, -, -, e0, e1, -⟩ := idx_facts t
  unfold iblk
  rw [View.read_apply]
  show V m c main_arg1 (((cfg0.win 1).blk t).view.emb (ix2 p q)) = m ((c : Thread nD τ).loc main_arg1) (((cfg0.win 8).blk t).view.emb (ix2 p q))
  rw [V_main_arg1]
  refine congrArg (m ((c : Thread nD τ).loc main_arg1)) (funext fun a => Fin.ext ?_)
  match a with
  | ⟨0, _⟩ => show win0_1.index t (0 : Fin 2) * 32 + 1 * p.val = win0_8.index t (0 : Fin 2) * 32 + 1 * p.val; omega
  | ⟨1, _⟩ => show win0_1.index t (1 : Fin 2) * 256 + 1 * q.val = win0_8.index t (1 : Fin 2) * 256 + 1 * q.val; omega

/-- The folded first-layer weights: the whole array at every point. -/
theorem iblk2_apply (c : Dev nD) (t : Fin cfg0.N) (k : Fin 64) (j : Fin 256) :
    (iblk m c 2 t : Vec Ideal S64x256 .f32) (ix2 k j)
      = w1A m c (ix2 k j) * (gammaA m c (ix1 j) * Ideal.rsqrt (varA m c (ix1 j) + epsW)) := by
  obtain ⟨-, -, -, -, -, e0, e1, -⟩ := idx_facts t
  rw [← scaleVec_apply m c j, ← w1f_apply m c k j]
  unfold iblk
  rw [View.read_apply]
  show V m c main_v7 (((cfg0.win 2).blk t).view.emb (ix2 k j)) = V m c main_v7 (ix2 k j)
  refine congrArg (V m c main_v7) (funext fun a => Fin.ext ?_)
  match a with
  | ⟨0, _⟩ => show win0_2.index t (0 : Fin 2) * 64 + 1 * k.val = k.val; omega
  | ⟨1, _⟩ => show win0_2.index t (1 : Fin 2) * 256 + 1 * j.val = j.val; omega

/-- The folded first-layer bias. -/
theorem iblk3_apply (c : Dev nD) (t : Fin cfg0.N) (j : Fin 256) :
    (iblk m c 3 t : Vec Ideal S1x256 .f32) (ix2 (0 : Fin 1) j)
      = (b1A m c (ix1 j) - meanA m c (ix1 j)) * (gammaA m c (ix1 j) * Ideal.rsqrt (varA m c (ix1 j) + epsW)) + betaA m c (ix1 j) := by
  obtain ⟨-, -, -, -, -, -, -, e0, e1, -⟩ := idx_facts t
  rw [← scaleVec_apply m c j, ← b1f_apply m c j]
  unfold iblk
  rw [View.read_apply]
  show V m c main_v12 (((cfg0.win 3).blk t).view.emb (ix2 (0 : Fin 1) j)) = V m c main_v12 (ix2 (0 : Fin 1) j)
  refine congrArg (V m c main_v12) (funext fun a => Fin.ext ?_)
  match a with
  | ⟨0, _⟩ => show win0_3.index t (0 : Fin 2) * 1 + 1 * 0 = 0; omega
  | ⟨1, _⟩ => show win0_3.index t (1 : Fin 2) * 256 + 1 * j.val = j.val; omega

/-- The second layer's weights. -/
theorem iblk4_apply (c : Dev nD) (t : Fin cfg0.N) (j i : Fin 256) :
    (iblk m c 4 t : Vec Ideal S256x256 .f32) (ix2 j i) = w2A m c (ix2 j i) := by
  obtain ⟨-, -, -, -, -, -, -, -, -, e0, e1, -⟩ := idx_facts t
  unfold iblk
  rw [View.read_apply]
  show V m c main_arg8 (((cfg0.win 4).blk t).view.emb (ix2 j i)) = m ((c : Thread nD τ).loc main_arg8) (ix2 j i)
  rw [V_main_arg8]
  refine congrArg (m ((c : Thread nD τ).loc main_arg8)) (funext fun a => Fin.ext ?_)
  match a with
  | ⟨0, _⟩ => show win0_4.index t (0 : Fin 2) * 256 + 1 * j.val = j.val; omega
  | ⟨1, _⟩ => show win0_4.index t (1 : Fin 2) * 256 + 1 * i.val = i.val; omega

/-- The second layer's bias. -/
theorem iblk5_apply (c : Dev nD) (t : Fin cfg0.N) (i : Fin 256) :
    (iblk m c 5 t : Vec Ideal S1x256 .f32) (ix2 (0 : Fin 1) i) = b2A m c (ix1 i) := by
  obtain ⟨-, -, -, -, -, -, -, -, -, -, -, e0, e1, -⟩ := idx_facts t
  rw [← b2_apply m c i]
  unfold iblk
  rw [View.read_apply]
  show V m c main_v13 (((cfg0.win 5).blk t).view.emb (ix2 (0 : Fin 1) i)) = V m c main_v13 (ix2 (0 : Fin 1) i)
  refine congrArg (V m c main_v13) (funext fun a => Fin.ext ?_)
  match a with
  | ⟨0, _⟩ => show win0_5.index t (0 : Fin 2) * 1 + 1 * 0 = 0; omega
  | ⟨1, _⟩ => show win0_5.index t (1 : Fin 2) * 256 + 1 * i.val = i.val; omega

/-- The last layer's weights, as a row. -/
theorem iblk6_apply (c : Dev nD) (t : Fin cfg0.N) (i : Fin 256) :
    (iblk m c 6 t : Vec Ideal S1x256 .f32) (ix2 (0 : Fin 1) i) = w3A m c (ix2 i (0 : Fin 1)) := by
  obtain ⟨-, -, -, -, -, -, -, -, -, -, -, -, -, e0, e1, -⟩ := idx_facts t
  rw [← w3_apply m c i]
  unfold iblk
  rw [View.read_apply]
  show V m c main_v11 (((cfg0.win 6).blk t).view.emb (ix2 (0 : Fin 1) i)) = V m c main_v11 (ix2 (0 : Fin 1) i)
  refine congrArg (V m c main_v11) (funext fun a => Fin.ext ?_)
  match a with
  | ⟨0, _⟩ => show win0_6.index t (0 : Fin 2) * 1 + 1 * 0 = 0; omega
  | ⟨1, _⟩ => show win0_6.index t (1 : Fin 2) * 256 + 1 * i.val = i.val; omega

/-- The last bias. -/
theorem iblk7_apply (c : Dev nD) (t : Fin cfg0.N) :
    (iblk m c 7 t : Vec Ideal S1x1 .f32) (ix2 (0 : Fin 1) (0 : Fin 1)) = b3A m c (ix1 (0 : Fin 1)) := by
  obtain ⟨-, -, -, -, -, -, -, -, -, -, -, -, -, -, -, e0, e1, -⟩ := idx_facts t
  rw [← b3_apply m c]
  unfold iblk
  rw [View.read_apply]
  show V m c main_v14 (((cfg0.win 7).blk t).view.emb (ix2 (0 : Fin 1) (0 : Fin 1))) = V m c main_v14 (ix2 (0 : Fin 1) (0 : Fin 1))
  refine congrArg (V m c main_v14) (funext fun a => Fin.ext ?_)
  match a with
  | ⟨0, _⟩ => show win0_7.index t (0 : Fin 2) * 1 + 1 * 0 = 0; omega
  | ⟨1, _⟩ => show win0_7.index t (1 : Fin 2) * 1 + 1 * 0 = 0; omega

/-! ## What a point writes back, the cover, the array -/

/-- What point t writes back is block t of `folded`. -/
theorem flushed_eq (c : Dev nD) (t : Fin cfg0.N) :
    (dats m 0 c).flushed 8 t = ((cfg0.win 8).blk t).view.read (Elt Ideal) (folded m c) := by
  rw [Cert.KernelIdeal.Value.flushed8]
  unfold out0_8
  rw [View.canon_unit_zero hz2]
  simp only [View.ld_unit_zero (S := S32x256x64) hz3, View.ld_unit_zero (S := S32x256) hz2, View.ld_unit_zero (S := S64x256) hz2,
    View.ld_unit_zero (S := S1x256) hz2, View.ld_unit_zero (S := S256x256) hz2, View.ld_unit_zero (S := S1x1) hz2]
  funext y
  obtain ⟨p, q, rfl⟩ : ∃ (p : Fin 32) (q : Fin 256), y = ix2 p q := ⟨y 0, y 1, eq_ix2 y⟩
  show k0_pay1 (F := Ideal) (k0_pay2 (iblk m c 0 t) (iblk m c 2 t) (iblk m c 3 t) (iblk m c 4 t) (iblk m c 5 t) (iblk m c 6 t) (iblk m c 7 t)) (iblk m c 1 t) (ix2 p q)
    = folded m c (((cfg0.win 8).blk t).view.emb (ix2 p q))
  refine (Cert.KernelIdeal.Body.payload_apply _ _ _ _ _ _ _ _ p q).trans ?_
  unfold folded outAt
  refine congrArg₂ masked (iblk1_apply m c t p q) ?_
  refine congr (congr (congr (congr (congrArg score (funext fun j => ?_)) (funext fun j => funext fun i => ?_))
    (funext fun i => ?_)) (funext fun i => ?_)) ?_
  · refine congrArg₂ max ?_ rfl
    unfold pre1Folded
    refine congrArg₂ (· + ·) (Finset.sum_congr rfl fun k _ => congrArg₂ (· * ·) ?_ (iblk2_apply m c t k j)) (iblk3_apply m c t j)
    exact iblk0_apply m c t p q k _ _ (by show win0_8.index t (0 : Fin 2) * 32 + 1 * p.val = _; omega)
      (by show win0_8.index t (1 : Fin 2) * 256 + 1 * q.val = _; omega)
  · exact iblk4_apply m c t j i
  · exact iblk5_apply m c t i
  · exact iblk6_apply m c t i
  · exact iblk7_apply m c t

/-- An index of the result is in point t's block iff each coordinate is in the block's range on its axis. -/
theorem mem_blk (t : Fin cfg0.N) (i : S256x2048.Idx) :
    i ∈ ((cfg0.win 8).blk t).view.set ↔ ∀ a : Fin 2, win0_8.index t a * S32x256.size a ≤ (i a).val ∧ (i a).val < win0_8.index t a * S32x256.size a + S32x256.size a := by
  show i ∈ ((View.whole main_v15).slice (win0_8.rect t)).set ↔ _
  rw [View.set_slice_whole, Rect.mem_set_unit]
  exact Iff.rfl

/-- The 64 blocks tile the result: row b lies in block row b / 32, node n in block column n / 256. -/
theorem cover (i : S256x2048.Idx) : ∃ t : Fin cfg0.N, (cfg0.win 8).flush t = true ∧ i ∈ ((cfg0.win 8).blk t).view.set := by
  have hi0 : (i 0).val < 256 := (i 0).isLt
  have hi1 : (i 1).val < 2048 := (i 1).isLt
  obtain ⟨t, ht⟩ := idx_onto ⟨(i 0).val / 32, by omega⟩ ⟨(i 1).val / 256, by omega⟩
  have q0 : win0_8.index t (0 : Fin 2) = (i 0).val / 32 := congrFun ht 0
  have q1 : win0_8.index t (1 : Fin 2) = (i 1).val / 256 := congrFun ht 1
  refine ⟨t, flush0_8 t, ?_⟩
  rw [mem_blk]
  intro a
  match a with
  | ⟨0, _⟩ => show win0_8.index t (0 : Fin 2) * 32 ≤ (i 0).val ∧ (i 0).val < win0_8.index t (0 : Fin 2) * 32 + 32; omega
  | ⟨1, _⟩ => show win0_8.index t (1 : Fin 2) * 256 ≤ (i 1).val ∧ (i 1).val < win0_8.index t (1 : Fin 2) * 256 + 256; omega

/-- The result array after the run is `folded`. -/
theorem final (c : Dev nD) : (dats m 0 c).arrAt 8 cfg0.N = folded m c :=
  (dats m 0 c).arrAt_eq_of_cover 8 (folded m c) (fun t _ => flushed_eq m c t) cover

/-- The kernel's run: the result array ends at `folded`, the arguments unchanged. -/
theorem run : θ_run defs (onTc (τ := τ) (main (F := Ideal))) ⟨m, fun _ => 0, ρ⟩ fun r => ∀ c : Dev nD,
      r.2.mem ((c : Thread nD τ).loc main_v15) = folded m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference's result, read at one entry. The reference merges batch rows and nodes into 524288 rows (row b·2048 + n),
  runs the three layers on the merged rows — the normalisation applied to the first layer's output, the scale spelt
  γ / sqrt(var + ε) —, masks, and splits the rows again. Entry (b, n) of its result is the masked score of row (b, n).
-/
import proofs.«171817_j43997644980641_2_alg».proof.Proof.Gen.ReferenceIdeal.Read
import proofs.«171817_j43997644980641_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx MaskedMlp

variable (x0 : S256x131072.Idx → EReal) (x1 : S256x2048.Idx → BitVec 32) (x2 : S64x256.Idx → EReal)
  (x3 x4 x5 x6 x7 : S256.Idx → EReal) (x8 : S256x256.Idx → EReal) (x9 : S256.Idx → EReal) (x10 : S256x1.Idx → EReal)
  (x11 : S1.Idx → EReal)

/-- The merged row of batch row b and node n. -/
def rowOf (b : Fin 256) (n : Fin 2048) : Fin 524288 := ⟨b.val * 2048 + n.val, by have := b.isLt; have := n.isLt; omega⟩

/-- Feature k of merged row b·2048 + n is column n·64 + k of batch row b. -/
theorem obs_row (b : Fin 256) (n : Fin 2048) (k : Fin 64) :
    val_main_v0 (F := Ideal) x0 (ix2 (rowOf b n) k) = x0 (obsIdx b n k) := by
  rw [val_main_v0_apply]
  refine congrArg x0 (funext fun a => Fin.ext ?_)
  have hb := b.isLt; have hn := n.isLt; have hk := k.isLt
  match a with
  | ⟨0, _⟩ => show ((b.val * 2048 + n.val) * 64 + k.val) / 131072 = b.val; omega
  | ⟨1, _⟩ => show ((b.val * 2048 + n.val) * 64 + k.val) % 131072 = n.val * 64 + k.val; omega

/-- The first layer with its normalisation, before the activation, at (r, j). -/
theorem pre_apply (r : Fin 524288) (j : Fin 256) :
    val_main_v17 (F := Ideal) x0 x2 x3 x4 x5 x6 x7 (ix2 r j)
      = (((∑ k : Fin 64, val_main_v0 (F := Ideal) x0 (ix2 r k) * x2 (ix2 k j)) + x3 (ix1 j)) - x6 (ix1 j))
          * Ideal.div (x4 (ix1 j)) (Ideal.sqrt (x7 (ix1 j) + epsW)) + x5 (ix1 j) := by
  rw [val_main_v17_apply, val_main_v14_apply, val_main_v7_apply, val_main_v4_apply, val_main_v1_apply, val_main_v3_apply,
    val_main_v2_apply, val_main_v6_apply, val_main_v5_apply, val_main_v13_apply, val_main_v12_apply, val_main_v16_apply,
    val_main_v15_apply]
  have e1 : ∀ k, lidx_main_v1 (ix2 r j) k = ix2 r k := fun k => funext fun a => by match a with | ⟨0, _⟩ => rfl | ⟨1, _⟩ => rfl
  have e2 : ∀ k, ridx_main_v1 (ix2 r j) k = ix2 k j := fun k => funext fun a => by match a with | ⟨0, _⟩ => rfl | ⟨1, _⟩ => rfl
  have e3 : idx_main_v2 (idx_main_v3 (ix2 r j)) = ix1 j := funext fun a => by match a with | ⟨0, _⟩ => rfl
  have e4 : idx_main_v5 (idx_main_v6 (ix2 r j)) = ix1 j := funext fun a => by match a with | ⟨0, _⟩ => rfl
  have e5 : idx_main_v12 (idx_main_v13 (ix2 r j)) = ix1 j := funext fun a => by match a with | ⟨0, _⟩ => rfl
  have e6 : idx_main_v15 (idx_main_v16 (ix2 r j)) = ix1 j := funext fun a => by match a with | ⟨0, _⟩ => rfl
  simp only [e1, e2, e3, e4, e5, e6]
  rfl

/-- The second layer before its activation, at (r, i). -/
theorem pre2_apply (r : Fin 524288) (i : Fin 256) :
    val_main_v22 (F := Ideal) x0 x2 x3 x4 x5 x6 x7 x8 x9 (ix2 r i)
      = (∑ j : Fin 256, val_main_v18 (F := Ideal) x0 x2 x3 x4 x5 x6 x7 (ix2 r j) * x8 (ix2 j i)) + x9 (ix1 i) := by
  rw [val_main_v22_apply, val_main_v19_apply, val_main_v21_apply, val_main_v20_apply]
  have e1 : ∀ k, lidx_main_v19 (ix2 r i) k = ix2 r k := fun k => funext fun a => by match a with | ⟨0, _⟩ => rfl | ⟨1, _⟩ => rfl
  have e2 : ∀ k, ridx_main_v19 (ix2 r i) k = ix2 k i := fun k => funext fun a => by match a with | ⟨0, _⟩ => rfl | ⟨1, _⟩ => rfl
  have e3 : idx_main_v20 (idx_main_v21 (ix2 r i)) = ix1 i := funext fun a => by match a with | ⟨0, _⟩ => rfl
  simp only [e1, e2, e3]
  rfl

/-- The score of merged row r. -/
theorem score_apply (r : Fin 524288) :
    val_main_v27 (F := Ideal) x0 x2 x3 x4 x5 x6 x7 x8 x9 x10 x11 (ix2 r (0 : Fin 1))
      = (∑ i : Fin 256, val_main_v23 (F := Ideal) x0 x2 x3 x4 x5 x6 x7 x8 x9 (ix2 r i) * x10 (ix2 i (0 : Fin 1)))
          + x11 (ix1 (0 : Fin 1)) := by
  rw [val_main_v27_apply, val_main_v24_apply, val_main_v26_apply, val_main_v25_apply]
  have e1 : ∀ k, lidx_main_v24 (ix2 r (0 : Fin 1)) k = ix2 r k := fun k => funext fun a => by match a with | ⟨0, _⟩ => rfl | ⟨1, _⟩ => rfl
  have e2 : ∀ k, ridx_main_v24 (ix2 r (0 : Fin 1)) k = ix2 k (0 : Fin 1) := fun k => funext fun a => by match a with | ⟨0, _⟩ => rfl | ⟨1, _⟩ => rfl
  have e3 : idx_main_v25 (idx_main_v26 (ix2 r (0 : Fin 1))) = ix1 (0 : Fin 1) := funext fun a => by match a with | ⟨0, _⟩ => rfl
  simp only [e1, e2, e3]
  rfl

/-- Entry (b, n) of the reference's result is the masked score of row (b, n). -/
theorem result_apply (b : Fin 256) (n : Fin 2048) :
    val_main_v32 (F := Ideal) x0 x1 x2 x3 x4 x5 x6 x7 x8 x9 x10 x11 (ix2 b n)
      = outAt (pre1 x0 x2 x3 x4 x5 x6 x7 b n) (x1 (ix2 b n)) x8 x9 x10 x11 := by
  have hb := b.isLt; have hn := n.isLt
  have e32 : idx_main_v32 (ix2 b n) = ix2 (rowOf b n) (0 : Fin 1) := funext fun a => Fin.ext (by
    match a with
    | ⟨0, _⟩ => show (b.val * 2048 + n.val) / 1 = b.val * 2048 + n.val; omega
    | ⟨1, _⟩ => rfl)
  have e28 : idx_main_v28 (ix2 (rowOf b n) (0 : Fin 1)) = ix2 b n := funext fun a => Fin.ext (by
    match a with
    | ⟨0, _⟩ => show ((b.val * 2048 + n.val) * 1 + 0) / 2048 = b.val; omega
    | ⟨1, _⟩ => show ((b.val * 2048 + n.val) * 1 + 0) % 2048 = n.val; omega)
  rw [val_main_v32_apply, e32, val_main_v31_apply, val_main_v30_apply, val_main_v28_apply, e28, score_apply]
  unfold outAt masked score
  refine congrArg₂ (Scalar.select (IntOp.cmpi .ne (x1 (ix2 b n)) 0#32)) ?_ rfl
  refine congrArg₂ (· + ·) (Finset.sum_congr rfl fun i _ => congrArg₂ (· * ·) ?_ rfl) rfl
  rw [val_main_v23_apply, pre2_apply]
  show max _ zeroW = _
  refine congrArg₂ max (congrArg₂ (· + ·) (Finset.sum_congr rfl fun j _ => congrArg₂ (· * ·) ?_ rfl) rfl) rfl
  rw [val_main_v18_apply, pre_apply]
  show max _ zeroW = _
  refine congrArg₂ max ?_ rfl
  unfold pre1
  simp only [obs_row]

end Cert.ReferenceIdeal.RefValue

end
-- ==== Proof.lean ====
/- A masked multi-layer perceptron over graph nodes: the kernel against its plain reference, at the exact (extended-real)
   values.

   Both programs compute, for batch row b and node n with feature row x = obs[b, 64n … 64n + 63],
       y(b, n) = Σ_i max(Σ_j h_j·W2_ji + b2_i, 0)·W3_i + b3,      h_j = max(a_j, 0),
   and return y(b, n) where mask[b, n] ≠ 0 and the fill value −1e8 elsewhere. They differ in the first layer. The
   reference applies an evaluation-mode batch normalisation to the layer's output,
       a_j = ((Σ_k x_k·W1_kj + b1_j) − μ_j)·(γ_j / √(var_j + ε)) + β_j,
   while the kernel's host code folds it into the weights and the bias first, with s_j = γ_j·rsqrt(var_j + ε):
       a_j = Σ_k x_k·(W1_kj·s_j) + ((b1_j − μ_j)·s_j + β_j).
   The two are equal by distributivity, which on the extended reals needs every quantity finite — the precondition's
   finiteness of the float inputs — and a real scale s_j, which needs var_j + ε > 0: the precondition's var_j ≥ 0 with
   ε > 0. (For var_j + ε < 0 the square root is undefined and the two programs do differ.) Everything after the first
   layer is the same expression of h on both sides: a product into a zero accumulator against a contraction, a lane sum
   against a contraction with a one-column matrix, roundings to bf16 that are the identity on exact values.

   The modules: MlpSpec (the function and the two laws), FiniteInputs (the precondition read back), KernelBody (what the
   body stores for a block, at an entry), KernelHost (the arrays the launch is handed, as functions of the arguments),
   KernelArray (what each grid point writes back, the cover, the result array), RefValue (the reference's result at an
   entry). The three frames are the generated ones; the idealization rewrote nothing, so its claim is trivial. -/
import proofs.«171817_j43997644980641_2_alg».proof.Defs
import proofs.«171817_j43997644980641_2_alg».proof.Proof.Gen.Kernel
import proofs.«171817_j43997644980641_2_alg».proof.Proof.Gen.Kernel.Skeleton
import proofs.«171817_j43997644980641_2_alg».proof.Proof.Gen.Kernel.Launch
import proofs.«171817_j43997644980641_2_alg».proof.Proof.Gen.Kernel.Points
import proofs.«171817_j43997644980641_2_alg».proof.Proof.Gen.Kernel.Frame
import proofs.«171817_j43997644980641_2_alg».proof.Proof.Gen.KernelIdeal
import proofs.«171817_j43997644980641_2_alg».proof.Proof.Gen.KernelIdeal.Skeleton
import proofs.«171817_j43997644980641_2_alg».proof.Proof.Gen.KernelIdeal.Launch
import proofs.«171817_j43997644980641_2_alg».proof.Proof.Gen.KernelIdeal.Points
import proofs.«171817_j43997644980641_2_alg».proof.Proof.Gen.KernelIdeal.Frame
import proofs.«171817_j43997644980641_2_alg».proof.Proof.Gen.ReferenceIdeal
import proofs.«171817_j43997644980641_2_alg».proof.Proof.Gen.Pre_finite_inputs
import proofs.«171817_j43997644980641_2_alg».proof.Proof.Gen.KernelIdeal.Value
import proofs.«171817_j43997644980641_2_alg».proof.Proof.Gen.ReferenceIdeal.Run
import proofs.«171817_j43997644980641_2_alg».proof.Proof.Gen.ReferenceIdeal.Read
import proofs.«171817_j43997644980641_2_alg».proof.Proof.MlpSpec
import proofs.«171817_j43997644980641_2_alg».proof.Proof.FiniteInputs
import proofs.«171817_j43997644980641_2_alg».proof.Proof.KernelArray
import proofs.«171817_j43997644980641_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the kernel's arrangement of the result and the reference's are one function: entry by entry
    the first layer's pre-activations agree (`pre1Folded_eq`: distributivity over finite quantities, a real scale). -/
theorem folded_eq (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 256) (n : Fin 2048) :
    MaskedMlp.outAt (MaskedMlp.pre1 (Cert.KernelIdeal.HostValue.obsA m c) (Cert.KernelIdeal.HostValue.w1A m c)
        (Cert.KernelIdeal.HostValue.b1A m c) (Cert.KernelIdeal.HostValue.gammaA m c) (Cert.KernelIdeal.HostValue.betaA m c)
        (Cert.KernelIdeal.HostValue.meanA m c) (Cert.KernelIdeal.HostValue.varA m c) b n)
      (Cert.KernelIdeal.HostValue.maskA m c (ValueIdx.ix2 b n)) (Cert.KernelIdeal.HostValue.w2A m c)
      (Cert.KernelIdeal.HostValue.b2A m c) (Cert.KernelIdeal.HostValue.w3A m c) (Cert.KernelIdeal.HostValue.b3A m c)
    = Cert.KernelIdeal.ArrayValue.folded m c (ValueIdx.ix2 b n) := by
  obtain ⟨h0, h2, h3, h4, h5, h6, h7, h70⟩ := Cert.Pre_finite_inputs.Decode.decode
    (Cert.KernelIdeal.HostValue.obsA m c) (Cert.KernelIdeal.HostValue.maskA m c) (Cert.KernelIdeal.HostValue.w1A m c)
    (Cert.KernelIdeal.HostValue.b1A m c) (Cert.KernelIdeal.HostValue.gammaA m c) (Cert.KernelIdeal.HostValue.betaA m c)
    (Cert.KernelIdeal.HostValue.meanA m c) (Cert.KernelIdeal.HostValue.varA m c) (Cert.KernelIdeal.HostValue.w2A m c)
    (Cert.KernelIdeal.HostValue.b2A m c) (Cert.KernelIdeal.HostValue.w3A m c) (Cert.KernelIdeal.HostValue.b3A m c) (hpre c)
  unfold Cert.KernelIdeal.ArrayValue.folded
  refine congrArg (fun f => MaskedMlp.outAt f _ _ _ _ _) (funext fun j => ?_)
  exact (MaskedMlp.pre1Folded_eq _ _ _ _ _ _ _ h0 h2 h3 h4 h5 h6 h7 h70 b n j).symm

/-- From memories agreeing on the arguments both programs end with the same result array: the kernel's run ends at
    its arrangement of the function (Proof/KernelArray.lean), the reference's at its own (Proof/RefValue.lean), and under
    the precondition the two arrangements are one function. -/
theorem algebraic : Cert.algebraic_KernelIdeal_ReferenceIdeal := by
  intro m ρ m' ρ' hpre hagree
  refine ⟨fun c => Cert.KernelIdeal.ArrayValue.folded m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [a0, a1, a2, a3, a4, a5, a6, a7, a8, a9, a10, a11]
  refine (Cert.ReferenceIdeal.Read.val_main_v32_eq (F := Ideal) _ _ _ _ _ _ _ _ _ _ _ _).trans ?_
  funext i
  obtain ⟨b, n, rfl⟩ : ∃ (b : Fin 256) (n : Fin 2048), i = ValueIdx.ix2 b n := ⟨i 0, i 1, ValueIdx.eq_ix2 i⟩
  refine (Cert.ReferenceIdeal.RefValue.result_apply _ _ _ _ _ _ _ _ _ _ _ _ b n).trans ?_
  exact folded_eq m hpre c b n

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
